-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x16 : Shape := ⟨2, ![512, 16]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn_part1 {F : FTy → Type} [FloatOps F] (main_arg4 : FVec F S512x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S512x128 .f32) (main_arg1 : FVec F S512x128 .f32) (main_arg2 : FVec F S512x128 .f32) (main_arg3 : FVec F S512x128 .f32) (main_arg4 : FVec F S512x128 .f32) (main_arg5 : IVec S512x16 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S512x128 : Shape := ⟨2, ![512, 128]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x512 : Shape := ⟨2, ![512, 512]⟩
abbrev S512x16x1 : Shape := ⟨3, ![512, 16, 1]⟩
abbrev S512x16x2 : Shape := ⟨3, ![512, 16, 2]⟩
abbrev S128x512 : Shape := ⟨2, ![128, 512]⟩
abbrev S1x512 : Shape := ⟨2, ![1, 512]⟩
abbrev S1x1 : Shape := ⟨2, ![1, 1]⟩
abbrev S8x512 : Shape := ⟨2, ![8, 512]⟩
abbrev S8x1 : Shape := ⟨2, ![8, 1]⟩
abbrev S8x128 : Shape := ⟨2, ![8, 128]⟩
abbrev S8x512x1 : Shape := ⟨3, ![8, 512, 1]⟩
abbrev S8x1x128 : Shape := ⟨3, ![8, 1, 128]⟩
abbrev S8x512x128 : Shape := ⟨3, ![8, 512, 128]⟩
abbrev S8 : Shape := ⟨1, ![8]⟩
abbrev S1 : Shape := ⟨1, ![1]⟩

abbrev nBuf : Space → Nat
  | .hbm => 85
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x16, .i32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512, .i32⟩
  | .hbm, ⟨26, _⟩ => ⟨S512x1, .i32⟩
  | .hbm, ⟨27, _⟩ => ⟨S_, .f32⟩
  | .hbm, ⟨28, _⟩ => ⟨S512x512, .f32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S_, .i32⟩
  | .hbm, ⟨33, _⟩ => ⟨S512x1, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x16, .i32⟩
  | .hbm, ⟨38, _⟩ => ⟨S512x16, .i1⟩
  | .hbm, ⟨39, _⟩ => ⟨S_, .i32⟩
  | .hbm, ⟨40, _⟩ => ⟨S512x16, .i32⟩
  | .hbm, ⟨41, _⟩ => ⟨S512x16, .i32⟩
  | .hbm, ⟨42, _⟩ => ⟨S512x16, .i32⟩
  | .hbm, ⟨43, _⟩ => ⟨S512x16, .i32⟩
  | .hbm, ⟨44, _⟩ => ⟨S512x16x1, .i32⟩
  | .hbm, ⟨45, _⟩ => ⟨S512x16x1, .i32⟩
  | .hbm, ⟨46, _⟩ => ⟨S512x16x2, .i32⟩
  | .hbm, ⟨47, _⟩ => ⟨S_, .f32⟩
  | .hbm, ⟨48, _⟩ => ⟨S512x16, .f32⟩
  | .hbm, ⟨49, _⟩ => ⟨S512x512, .f32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x128, .f32⟩
  | .hbm, ⟨69, _⟩ => ⟨S_, .f32⟩
  | .hbm, ⟨70, _⟩ => ⟨S512, .f32⟩
  | .hbm, ⟨71, _⟩ => ⟨S128x512, .f32⟩
  | .hbm, ⟨72, _⟩ => ⟨S512x512, .f32⟩
  | .hbm, ⟨73, _⟩ => ⟨S512x1, .f32⟩
  | .hbm, ⟨74, _⟩ => ⟨S1x512, .f32⟩
  | .hbm, ⟨75, _⟩ => ⟨S512x512, .f32⟩
  | .hbm, ⟨76, _⟩ => ⟨S512x512, .f32⟩
  | .hbm, ⟨77, _⟩ => ⟨S512x512, .f32⟩
  | .hbm, ⟨78, _⟩ => ⟨S_, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S1x1, .f32⟩
  | .hbm, ⟨83, _⟩ => ⟨S_, .f32⟩
  | .hbm, ⟨84, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S512x128_S_d0_1 : S512x128.ReducesTo [0, 1] S_
  h_S_ : 0 < S_.numel
  bcast_S512_S512x1_0 : S512.BroadcastsInDim S512x1 (![0] : Fin 1 → Fin S512x1.rank)
  bcast_S_S512x512 : S_.BroadcastsInDim S512x512 (![] : Fin 0 → Fin S512x512.rank)
  bcast_S_S512x1 : S_.BroadcastsInDim S512x1 (![] : Fin 0 → Fin S512x1.rank)
  bcast_S_S512x16 : S_.BroadcastsInDim S512x16 (![] : Fin 0 → Fin S512x16.rank)
  bcast_S512x1_S512x16_0_1 : S512x1.BroadcastsInDim S512x16 (![0, 1] : Fin 2 → Fin S512x16.rank)
  bcast_S512x16_S512x16x1_0_1 : S512x16.BroadcastsInDim S512x16x1 (![0, 1] : Fin 2 → Fin S512x16x1.rank)
  concatenates_S512x16x1_S512x16x1_S512x16x2_d2 : Shape.Concatenates [S512x16x1, S512x16x1] S512x16x2 2
  reducesTo_S512x128_S512_d1 : S512x128.ReducesTo [1] S512
  transposes_S512x128_S128x512_1_0 : S512x128.Transposes [1, 0] S128x512
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  inb_S1x1_S1x1_0_0 : ∀ a, (![0, 0] : Fin 2 → Nat) a + S1x1.size a ≤ S1x1.size a
  h_S1x1 : 0 < S1x1.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S8x128 : S8x512.Slices ![0, 0] S8x128
  shapeCasts_S8x512_S8x512x1 : S8x512.ShapeCasts S8x512x1
  shapeCasts_S8x128_S8x1x128 : S8x128.ShapeCasts S8x1x128
  broadcasts_S8x512x1_S8x512x128 : S8x512x1.Broadcasts S8x512x128
  broadcasts_S8x1x128_S8x512x128 : S8x1x128.Broadcasts S8x512x128
  reduces_S8x512x128_S8x512 : S8x512x128.Reduces [2] S8x512
  reduces_S8x512_S8 : S8x512.Reduces [1] S8
  shapeCasts_S8_S8x1 : S8.ShapeCasts S8x1
  slices_S8x512_o0_128_S8x128 : S8x512.Slices ![0, 128] S8x128
  slices_S8x512_o0_256_S8x128 : S8x512.Slices ![0, 256] S8x128
  slices_S8x512_o0_384_S8x128 : S8x512.Slices ![0, 384] S8x128
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  scatter_S512x512_S512x16x2_S512x16_n_01_01_2_wf : ScatterDims.WF S512x512 S512x16x2 S512x16 [] [0, 1] [0, 1] 2
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S512x512.size a
  hwx0_0 : ∀ i : grid0.Coords, EltTy.bits .f32 = 32 ∨ (Rect.block (s := S512x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S512x512.size a
  hwx0_1 : ∀ i : grid0.Coords, EltTy.bits .f32 = 32 ∨ (Rect.block (s := S512x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S512x512.size a
  hwx0_2 : ∀ i : grid0.Coords, EltTy.bits .f32 = 32 ∨ (Rect.block (s := S512x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S512x512_S512x16x2_S512x16_n_01_01_2 : ScatterDims S512x512 S512x16x2 S512x16 where
  updateWindowDims := []
  insertedWindowDims := [0, 1]
  scatterDimsToOperandDims := [0, 1]
  indexVectorDim := 2
  wf := scatter_S512x512_S512x16x2_S512x16_n_01_01_2_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v59) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x128 : Shape := ⟨2, ![512, 128]⟩
abbrev S512x16 : Shape := ⟨2, ![512, 16]⟩
abbrev S_ : Shape := ⟨0, ![]⟩
abbrev S512x512 : Shape := ⟨2, ![512, 512]⟩
abbrev S512 : Shape := ⟨1, ![512]⟩
abbrev S512x1 : Shape := ⟨2, ![512, 1]⟩
abbrev S512x16x1 : Shape := ⟨3, ![512, 16, 1]⟩
abbrev S512x16x2 : Shape := ⟨3, ![512, 16, 2]⟩
abbrev S128x512 : Shape := ⟨2, ![128, 512]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 98
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x16, .i32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S512x512, .i1⟩
  | .hbm, ⟨27, _⟩ => ⟨S512, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S_, .i32⟩
  | .hbm, ⟨33, _⟩ => ⟨S512x1, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x16, .i32⟩
  | .hbm, ⟨38, _⟩ => ⟨S512x16, .i1⟩
  | .hbm, ⟨39, _⟩ => ⟨S_, .i32⟩
  | .hbm, ⟨40, _⟩ => ⟨S512x16, .i32⟩
  | .hbm, ⟨41, _⟩ => ⟨S512x16, .i32⟩
  | .hbm, ⟨42, _⟩ => ⟨S512x16, .i32⟩
  | .hbm, ⟨43, _⟩ => ⟨S512x16, .i32⟩
  | .hbm, ⟨44, _⟩ => ⟨S512x16x1, .i32⟩
  | .hbm, ⟨45, _⟩ => ⟨S512x16x1, .i32⟩
  | .hbm, ⟨46, _⟩ => ⟨S512x16x2, .i32⟩
  | .hbm, ⟨47, _⟩ => ⟨S_, .i1⟩
  | .hbm, ⟨48, _⟩ => ⟨S512x16, .i1⟩
  | .hbm, ⟨49, _⟩ => ⟨S512x512, .i1⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .i1⟩
  | .hbm, ⟨57, _⟩ => ⟨S512x512, .i1⟩
  | .hbm, ⟨58, _⟩ => ⟨S512x512, .i1⟩
  | .hbm, ⟨59, _⟩ => ⟨S512x512, .i1⟩
  | .hbm, ⟨60, _⟩ => ⟨S512x512, .i1⟩
  | .hbm, ⟨61, _⟩ => ⟨S512x128, .f32⟩
  | .hbm, ⟨62, _⟩ => ⟨S_, .f32⟩
  | .hbm, ⟨63, _⟩ => ⟨S512, .f32⟩
  | .hbm, ⟨64, _⟩ => ⟨S128x512, .f32⟩
  | .hbm, ⟨65, _⟩ => ⟨S512x512, .f32⟩
  | .hbm, ⟨66, _⟩ => ⟨S512x1, .f32⟩
  | .hbm, ⟨67, _⟩ => ⟨S1x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512x512x1, .f32⟩
  | .hbm, ⟨76, _⟩ => ⟨S512x1x512, .f32⟩
  | .hbm, ⟨77, _⟩ => ⟨S512x512x512, .f32⟩
  | .hbm, ⟨78, _⟩ => ⟨S512x512x512, .f32⟩
  | .hbm, ⟨79, _⟩ => ⟨S512x512x512, .f32⟩
  | .hbm, ⟨80, _⟩ => ⟨S_, .f32⟩
  | .hbm, ⟨81, _⟩ => ⟨S512x512x512, .f32⟩
  | .hbm, ⟨82, _⟩ => ⟨S512x512x512, .f32⟩
  | .hbm, ⟨83, _⟩ => ⟨S512x512x1, .i1⟩
  | .hbm, ⟨84, _⟩ => ⟨S512x1x512, .i1⟩
  | .hbm, ⟨85, _⟩ => ⟨S512x512x512, .i1⟩
  | .hbm, ⟨86, _⟩ => ⟨S512x512x512, .i1⟩
  | .hbm, ⟨87, _⟩ => ⟨S512x512x512, .i1⟩
  | .hbm, ⟨88, _⟩ => ⟨S_, .f32⟩
  | .hbm, ⟨89, _⟩ => ⟨S512x512x512, .f32⟩
  | .hbm, ⟨90, _⟩ => ⟨S512x512x512, .f32⟩
  | .hbm, ⟨91, _⟩ => ⟨S_, .f32⟩
  | .hbm, ⟨92, _⟩ => ⟨S_, .f32⟩
  | .hbm, ⟨93, _⟩ => ⟨S512x512x512, .f32⟩
  | .hbm, ⟨94, _⟩ => ⟨S512x512x512, .f32⟩
  | .hbm, ⟨95, _⟩ => ⟨S_, .f32⟩
  | .hbm, ⟨96, _⟩ => ⟨S_, .f32⟩
  | .hbm, ⟨97, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call0_cst : Ref sig .tc := ⟨.hbm, 88, rfl⟩
abbrev main_call0_v0 : Ref sig .tc := ⟨.hbm, 89, rfl⟩
abbrev main_v68 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  reducesTo_S512x128_S_d0_1 : S512x128.ReducesTo [0, 1] S_
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S_S512x1 : S_.BroadcastsInDim S512x1 (![] : Fin 0 → Fin S512x1.rank)
  bcast_S_S512x16 : S_.BroadcastsInDim S512x16 (![] : Fin 0 → Fin S512x16.rank)
  bcast_S512x1_S512x16_0_1 : S512x1.BroadcastsInDim S512x16 (![0, 1] : Fin 2 → Fin S512x16.rank)
  bcast_S512x16_S512x16x1_0_1 : S512x16.BroadcastsInDim S512x16x1 (![0, 1] : Fin 2 → Fin S512x16x1.rank)
  concatenates_S512x16x1_S512x16x1_S512x16x2_d2 : Shape.Concatenates [S512x16x1, S512x16x1] S512x16x2 2
  reducesTo_S512x128_S512_d1 : S512x128.ReducesTo [1] S512
  transposes_S512x128_S128x512_1_0 : S512x128.Transposes [1, 0] S128x512
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  scatter_S512x512_S512x16x2_S512x16_n_01_01_2_wf : ScatterDims.WF S512x512 S512x16x2 S512x16 [] [0, 1] [0, 1] 2
  dot_S512x128_S128x512_S512x512_1_0_0_1_n_n_wf : DotDims.WF S512x128 S128x512 S512x512 [1] [0] [0] [1] [] []

variable [Facts₀]

def scatter_S512x512_S512x16x2_S512x16_n_01_01_2 : ScatterDims S512x512 S512x16x2 S512x16 where
  updateWindowDims := []
  insertedWindowDims := [0, 1]
  scatterDimsToOperandDims := [0, 1]
  indexVectorDim := 2
  wf := scatter_S512x512_S512x16x2_S512x16_n_01_01_2_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.Masks.lean ====
/-
  The two programs carry the membership masks differently: the reference as booleans (bits), combined by `and` / `not`
  and consumed by a `select`; the kernel as the numbers 0 and 1, combined by `1 - ·` and products and consumed by two
  multiplications. Reading a bit `b` as the number `ind b` (1 for a set bit, 0 for a clear one) turns each boolean
  combination into the arithmetic one, and a product with two such numbers into the selection: over the extended reals
  `x · 1 = x` and `x · 0 = 0` for EVERY `x`, the infinities included, so nothing is assumed of the masked value.
-/
import Idealize.ShloMosaic.PureOps.Ideal

noncomputable section

namespace Cert.Triplet

open Idealize.ShloMosaic

/-- The number a mask bit stands for: 1 for a set bit, 0 for a clear one. -/
def ind (b : BitVec 1) : EReal := if b = 1#1 then 1 else 0

/-- A bit is clear or set. -/
theorem bit_cases (b : BitVec 1) : b = 0#1 ∨ b = 1#1 := by
  have h := b.isLt
  rcases Nat.lt_or_ge b.toNat 1 with h0 | h1
  · left; apply BitVec.eq_of_toNat_eq; simp only [BitVec.toNat_ofNat]; omega
  · right; apply BitVec.eq_of_toNat_eq; simp only [BitVec.toNat_ofNat]; omega

@[simp] theorem ind_clear : ind 0#1 = 0 := by unfold ind; rw [if_neg (by decide)]
@[simp] theorem ind_set : ind 1#1 = 1 := by unfold ind; rw [if_pos rfl]

theorem one_sub_one : (1 : EReal) - 1 = 0 := by
  rw [show (1 : EReal) = ((1 : ℝ) : EReal) from rfl, ← EReal.coe_sub, sub_self]; rfl

/-- The exact conversion of a bit to a float is the number it stands for. -/
theorem uitofp_bit (b : BitVec 1) : FloatOps.uitofp (F := Ideal) .f32 b = ind b := by
  rcases bit_cases b with rfl | rfl
  · show (((0#1 : BitVec 1).toNat : ℝ) : EReal) = _; simp
  · show (((1#1 : BitVec 1).toNat : ℝ) : EReal) = _; simp

/-- "in the list and not on the diagonal": the product `M · (1 - eye)` of numbers is the bit `M and not eye`. -/
theorem ind_and_not (a e : BitVec 1) : ind a * (1 - ind e) = ind (IntOp.andi a (~~~e)) := by
  rcases bit_cases a with rfl | rfl <;> rcases bit_cases e with rfl | rfl <;>
    simp [IntOp.andi, one_sub_one, show (~~~(0#1 : BitVec 1)) = 1#1 from by decide,
      show (~~~(1#1 : BitVec 1)) = 0#1 from by decide]

/-- "not in the list and not on the diagonal": `(1 - M) · (1 - eye)` is the bit `not M and not eye`. -/
theorem ind_not_and_not (a e : BitVec 1) : (1 - ind a) * (1 - ind e) = ind (IntOp.andi (~~~a) (~~~e)) := by
  rcases bit_cases a with rfl | rfl <;> rcases bit_cases e with rfl | rfl <;>
    simp [IntOp.andi, one_sub_one, show (~~~(0#1 : BitVec 1)) = 1#1 from by decide,
      show (~~~(1#1 : BitVec 1)) = 0#1 from by decide]

/-- A value weighted by two mask numbers is the value where both bits are set and 0 elsewhere — for every extended
    real `x`. -/
theorem mul_ind_ind (x : EReal) (p n : BitVec 1) : x * ind p * ind n = Scalar.select (IntOp.andi p n) x 0 := by
  rcases bit_cases p with rfl | rfl <;> rcases bit_cases n with rfl | rfl <;>
    simp [IntOp.andi, Scalar.select]

end Cert.Triplet

end
-- ==== Proof.Spec.lean ====
/-
  The number both programs compute beside the consistency loss: the triplet hinge sum
      ∑ i, ∑ j, ∑ k, max (D[i, j] - D[i, k] + margin, 0) · [P[i, j]] · [N[i, k]]
  over all 512³ triples, `D` the squared-distance matrix, `P` and `N` the two membership masks as bits and `[b]` the
  number a bit stands for (`ind`). The margin and the zero are kept as the f32 words both programs print.
  Also here: the two re-groupings of a sum over 512 indices that the kernel's tiling uses — 64 row blocks of 8, and four
  column chunks of 128 — valid in any commutative monoid, so in the extended reals with no finiteness assumed.
-/
import proofs.«176609_j69793218560006_2_alg».proof.Proof.Masks
import Idealize.ShloMosaic.Lib.ValueIdx
import Mathlib.Algebra.BigOperators.Fin
import Mathlib.Logic.Equiv.Fin.Basic

noncomputable section

namespace Cert.Triplet

open Idealize.ShloMosaic Idealize.ShloMosaic.ValueIdx

/-- The shape of the three [512, 512] matrices. -/
abbrev Sq : Shape := ⟨2, ![512, 512]⟩

/-- One weighted hinge term, from numbers. -/
def hinge (dij dik pij nik : EReal) : EReal :=
  max (dij - dik + Ideal.ofBits .f32 0x3DCCCCCD#32) (Ideal.ofBits .f32 0x00000000#32) * pij * nik

/-- THE TRIPLET SUM of a distance matrix and two bit masks. -/
def tripletSum (D : Sq.Idx → EReal) (P N : Sq.Idx → BitVec 1) : EReal :=
  ∑ i : Fin 512, ∑ j : Fin 512, ∑ k : Fin 512,
    hinge (D (ix2 i j)) (D (ix2 i k)) (ind (P (ix2 i j))) (ind (N (ix2 i k)))

variable {M : Type*} [AddCommMonoid M]

/-- A sum over `a · b` indices, as `a` groups of `b`. -/
theorem sum_fin_mul (a b : ℕ) (g : Fin (a * b) → M) :
    ∑ i, g i = ∑ t : Fin a, ∑ r : Fin b, g (finProdFinEquiv (t, r)) := by
  rw [← Fintype.sum_prod_type']
  exact (Equiv.sum_comp finProdFinEquiv g).symm

/-- Row `8 t + r`: row `r` of row block `t`. -/
abbrev row (t : Fin 64) (r : Fin 8) : Fin 512 := ⟨8 * t.val + r.val, by have := t.isLt; have := r.isLt; omega⟩

/-- Column `o + l` of a 512-wide block, for `l` in a chunk of 128 that fits. -/
abbrev col (o : ℕ) (ho : o + 128 ≤ 512) (l : Fin 128) : Fin 512 := ⟨o + l.val, by have := l.isLt; omega⟩

/-- 512 rows are 64 row blocks of 8. -/
theorem sum_rows (g : Fin 512 → M) : ∑ i, g i = ∑ t : Fin 64, ∑ r : Fin 8, g (row t r) := by
  rw [show (∑ i, g i) = ∑ t : Fin 64, ∑ r : Fin 8, g (finProdFinEquiv (t, r)) from sum_fin_mul 64 8 g]
  refine Finset.sum_congr rfl fun t _ => Finset.sum_congr rfl fun r _ => congrArg g (Fin.ext ?_)
  show r.val + 8 * t.val = 8 * t.val + r.val
  omega

/-- 512 columns are four chunks of 128, at offsets 0, 128, 256, 384. -/
theorem sum_cols (g : Fin 512 → M) :
    ∑ k, g k = (∑ l, g (col 0 (by omega) l)) + (∑ l, g (col 128 (by omega) l)) + (∑ l, g (col 256 (by omega) l))
      + ∑ l, g (col 384 (by omega) l) := by
  rw [show (∑ k, g k) = ∑ q : Fin 4, ∑ l : Fin 128, g (finProdFinEquiv (q, l)) from sum_fin_mul 4 128 g,
    Fin.sum_univ_four]
  refine congrArg₂ (· + ·) (congrArg₂ (· + ·) (congrArg₂ (· + ·) ?_ ?_) ?_) ?_ <;>
    refine Finset.sum_congr rfl fun l _ => congrArg g (Fin.ext ?_)
  · show l.val + 128 * 0 = 0 + l.val; omega
  · show l.val + 128 * 1 = 128 + l.val; omega
  · show l.val + 128 * 2 = 256 + l.val; omega
  · show l.val + 128 * 3 = 384 + l.val; omega

end Cert.Triplet

end
-- ==== Proof.Chunk.lean ====
/-
  The kernel body at one grid point works on three [8, 512] blocks: `a` (eight rows of the squared-distance matrix),
  `p` and `n` (the same rows of the two 0/1 masks). It cuts the columns `k` into four chunks of 128. For one chunk at
  column offset `o` it forms the [8, 512, 128] tensor
      w[r, j, l] = max (a[r, j] - a[r, o + l] + margin, 0) · p[r, j] · n[r, o + l],
  sums it over `l`, then over `j`, leaving one number per row. The four chunk results are added to a zero column in
  order, the eight rows are added up, and the total is added to what the output block held.
  This module names the chunk (`chunk`), shows that the body's stored value is exactly that arrangement of four chunks
  (`stored_eq`, by unfolding), and reads one chunk at a row as the double sum over `j` and `l` (`chunk_apply`).
-/
import proofs.«176609_j69793218560006_2_alg».proof.Proof.Gen.KernelIdeal.Skeleton
import proofs.«176609_j69793218560006_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx
open Cert.Triplet (col sum_cols)

variable {F : FTy → Type} [FloatOps F]

/-- One chunk of 128 columns `k` at offset `off`: the weighted hinge tensor summed over `k`, then over `j`. -/
def chunk (off : Fin 2 → ℕ) (hs : S8x512.Slices off S8x128) (a p n : FVec F S8x512 .f32) : FVec F S8x1 .f32 :=
  shapeCast S8x1 (multiReduction .add [1] S8 (multiReduction .add [2] S8x512
    (mulf (mulf (maximumf (addf (subf
        (broadcastTo S8x512x128 (shapeCast S8x512x1 a shapeCasts_S8x512_S8x512x1) broadcasts_S8x512x1_S8x512x128)
        (broadcastTo S8x512x128 (shapeCast S8x1x128 (extractStridedSlice S8x128 off a hs) shapeCasts_S8x128_S8x1x128)
          broadcasts_S8x1x128_S8x512x128))
        (broadcast S8x512x128 (Scalar.ofBits .f32 0x3DCCCCCD#32)))
        (broadcast S8x512x128 (Scalar.ofBits .f32 0x00000000#32)))
      (broadcastTo S8x512x128 (shapeCast S8x512x1 p shapeCasts_S8x512_S8x512x1) broadcasts_S8x512x1_S8x512x128))
      (broadcastTo S8x512x128 (shapeCast S8x1x128 (extractStridedSlice S8x128 off n hs) shapeCasts_S8x128_S8x1x128)
        broadcasts_S8x1x128_S8x512x128))
    0x00000000#32 reduces_S8x512x128_S8x512 (.inl rfl) rfl) 0x00000000#32 reduces_S8x512_S8 (.inl rfl) rfl) shapeCasts_S8_S8x1

/-- What one grid point adds to the output block: the four chunks added to a zero column in order, the eight rows
    added up. -/
def blockSum (a p n : FVec F S8x512 .f32) : FVec F S1x1 .f32 :=
  shapeCast S1x1 (multiReduction .add [0] S1
    (addf (addf (addf (addf (broadcast S8x1 (Scalar.ofBits .f32 0x00000000#32))
      (chunk ![0, 0] slices_S8x512_o0_0_S8x128 a p n))
      (chunk ![0, 128] slices_S8x512_o0_128_S8x128 a p n))
      (chunk ![0, 256] slices_S8x512_o0_256_S8x128 a p n))
      (chunk ![0, 384] slices_S8x512_o0_384_S8x128 a p n))
    0x00000000#32 reduces_S8x1_S1 (.inl rfl) rfl) shapeCasts_S1_S1x1

/-- The value the body stores into the output block, from the three loaded blocks and what the block held: the old
    contents plus the point's block sum (the body's arithmetic, unfolded). -/
theorem stored_eq (x0 x1 x2 : Vec F S8x512 .f32) (xo : Vec F S1x1 .f32) :
    k0_pay1 (k0_pay10 (k0_pay3 x0) (k0_pay4 x1) (k0_pay5 x2) (k0_pay6 x0 x1 x2) (k0_pay7 x2) (k0_pay8 x0) (k0_pay9 x1))
        (k0_pay11 (k0_pay3 x0) (k0_pay4 x1) (k0_pay5 x2)) xo
      = addf (shapeCast S1x1 xo shapeCasts_S1x1_S1x1) (blockSum (k0_pay3 x0) (k0_pay4 x1) (k0_pay5 x2)) := rfl

/-! ## Reading a chunk at a row -/

/-- The index the sum over `j` inserts into row `r` is `(r, j)`. -/
theorem lift_row (r : Fin 8) (j : Fin 512) : reduces_S8x512_S8.lift (ix1 r) j = ix2 r j := by
  funext a
  match a with
  | ⟨0, _⟩ => exact Fin.ext rfl
  | ⟨1, _⟩ => exact Fin.ext rfl

/-- The index the sum over `l` inserts at `(r, j)` is `(r, j, l)`. -/
theorem lift_lane (r : Fin 8) (j : Fin 512) (l : Fin 128) : reduces_S8x512x128_S8x512.lift (ix2 r j) l = ix3 r j l := by
  funext a
  match a with
  | ⟨0, _⟩ => exact Fin.ext rfl
  | ⟨1, _⟩ => exact Fin.ext rfl
  | ⟨2, _⟩ => exact Fin.ext rfl

/-- The index the sum over the eight rows inserts is `(r, 0)`. -/
theorem lift_rows (u : Fin 1) (r : Fin 8) : reduces_S8x1_S1.lift (ix1 u) r = ix2 r u := by
  funext a
  match a with
  | ⟨0, _⟩ => exact Fin.ext rfl
  | ⟨1, _⟩ => exact Fin.ext rfl

/-- A [8, 512] block spread along a new last axis reads, at `(r, j, l)`, the block at `(r, j)`. -/
theorem spread_col {α : Type} (v : S8x512.Idx → α) (r : Fin 8) (j : Fin 512) (l : Fin 128) :
    broadcastTo S8x512x128 (shapeCast S8x512x1 v shapeCasts_S8x512_S8x512x1) broadcasts_S8x512x1_S8x512x128 (ix3 r j l)
      = v (ix2 r j) := by
  rw [broadcastTo_apply _ broadcasts_S8x512x1_S8x512x128 (ix3 r j l) (ix3 r j (0 : Fin 1)) (fun a => by
    match a with
    | ⟨0, _⟩ => rfl
    | ⟨1, _⟩ => rfl
    | ⟨2, _⟩ => rfl)]
  exact shapeCast_apply v shapeCasts_S8x512_S8x512x1 _ (ix2 r j) (by
    rw [Shape.rowMajor_val_two, Shape.rowMajor_val_three]
    show r.val * 512 + j.val = (r.val * 512 + j.val) * 1 + 0
    omega)

/-- A [8, 128] piece spread along a new middle axis reads, at `(r, j, l)`, the piece at `(r, l)`. -/
theorem spread_lane {α : Type} (s : S8x128.Idx → α) (r : Fin 8) (j : Fin 512) (l : Fin 128) :
    broadcastTo S8x512x128 (shapeCast S8x1x128 s shapeCasts_S8x128_S8x1x128) broadcasts_S8x1x128_S8x512x128 (ix3 r j l)
      = s (ix2 r l) := by
  rw [broadcastTo_apply _ broadcasts_S8x1x128_S8x512x128 (ix3 r j l) (ix3 r (0 : Fin 1) l) (fun a => by
    match a with
    | ⟨0, _⟩ => rfl
    | ⟨1, _⟩ => rfl
    | ⟨2, _⟩ => rfl)]
  exact shapeCast_apply s shapeCasts_S8x128_S8x1x128 _ (ix2 r l) (by
    rw [Shape.rowMajor_val_two, Shape.rowMajor_val_three]
    show r.val * 128 + l.val = (r.val * 1 + 0) * 128 + l.val
    omega)

/-- A lane sum with the printed zero accumulator, read at an index: the sum over the reduced axis's coordinates. -/
theorem sum_axis {s t : Shape} {a : Fin s.rank} (src : FVec Ideal s .f32) (h : s.Reduces [a] t)
    (hφ : FKind.Formats .f32) (hacc : (0x00000000#32 : BitVec 32) = FKind.add.neutral .f32 hφ) (j : t.Idx) :
    multiReduction .add [a] t src 0x00000000#32 h hφ hacc j = ∑ k : Fin (s.size a), src (h.lift j k) :=
  Ideal.multiReduction_add_single src 0x00000000#32 h hφ hacc j

/-- The weighted hinge term of the body, over the extended reals. -/
def term (a p n : FVec Ideal S8x512 .f32) (r : Fin 8) (j k : Fin 512) : EReal :=
  max (a (ix2 r j) - a (ix2 r k) + Ideal.ofBits .f32 0x3DCCCCCD#32) (Ideal.ofBits .f32 0x00000000#32) * p (ix2 r j) * n (ix2 r k)

/-- ONE CHUNK AT A ROW: the double sum, over `j` and over the chunk's 128 columns, of the weighted hinge terms. -/
theorem chunk_apply (o : ℕ) (ho : o + 128 ≤ 512) (hs : S8x512.Slices ![0, o] S8x128) (a p n : FVec Ideal S8x512 .f32)
    (r : Fin 8) (u : Fin 1) :
    chunk (F := Ideal) ![0, o] hs a p n (ix2 r u) = ∑ j : Fin 512, ∑ l : Fin 128, term a p n r j (col o ho l) := by
  unfold chunk
  refine (shapeCast_apply _ shapeCasts_S8_S8x1 (ix2 r u) (ix1 r) (by
    rw [Shape.rowMajor_val_one, Shape.rowMajor_val_two]
    show r.val = r.val * 1 + u.val
    omega)).trans ?_
  refine (sum_axis _ reduces_S8x512_S8 _ _ (ix1 r)).trans ?_
  refine Finset.sum_congr rfl fun (j : Fin 512) _ => ?_
  refine (congrArg _ (lift_row r j)).trans ?_
  refine (sum_axis _ reduces_S8x512x128_S8x512 _ _ (ix2 r j)).trans ?_
  refine Finset.sum_congr rfl fun (l : Fin 128) _ => ?_
  refine (congrArg _ (lift_lane r j l)).trans ?_
  rw [mulf_apply, mulf_apply, maximumf_apply, addf_apply, subf_apply, spread_col, spread_col, spread_lane,
    spread_lane, slice2_axis1_apply o a hs r l (col o ho l) rfl, slice2_axis1_apply o n hs r l (col o ho l) rfl]
  rfl

/-- A POINT'S BLOCK SUM: the four chunks cover the 512 columns `k`, so the block sum is the sum, over the block's eight
    rows and over all `j` and `k`, of the weighted hinge terms. The zero the chunks are added to is the number 0. -/
theorem blockSum_apply (a p n : FVec Ideal S8x512 .f32) (u v : Fin 1) :
    blockSum (F := Ideal) a p n (ix2 u v) = ∑ r : Fin 8, ∑ j : Fin 512, ∑ k : Fin 512, term a p n r j k := by
  unfold blockSum
  refine (shapeCast_apply _ shapeCasts_S1_S1x1 (ix2 u v) (ix1 u) (by
    rw [Shape.rowMajor_val_one, Shape.rowMajor_val_two]
    show u.val = u.val * 1 + v.val
    omega)).trans ?_
  refine (sum_axis _ reduces_S8x1_S1 _ _ (ix1 u)).trans ?_
  refine Finset.sum_congr rfl fun (r : Fin 8) _ => ?_
  refine (congrArg _ (lift_rows u r)).trans ?_
  rw [addf_apply, addf_apply, addf_apply, addf_apply, broadcast_apply,
    chunk_apply 0 (by omega), chunk_apply 128 (by omega), chunk_apply 256 (by omega), chunk_apply 384 (by omega)]
  rw [show (FloatOps.ofBits (F := Ideal) .f32 0x00000000#32) = 0 from Ideal.ofBits_zero_f32, zero_add,
    ← Finset.sum_add_distrib, ← Finset.sum_add_distrib, ← Finset.sum_add_distrib]
  refine Finset.sum_congr rfl fun j _ => ?_
  exact (sum_cols (fun k => term a p n r j k)).symm

end Cert.KernelIdeal.Body

end
-- ==== Proof.CaseValues.lean ====
/-
  What one grid point leaves in the output block. At the first point the body first stores a zero into the block, reads
  it back, and stores zero plus the point's block sum; at every later point it reads what the point before left and
  stores that plus the point's block sum. Both are read off the stores the body's run found.
-/
import proofs.«176609_j69793218560006_2_alg».proof.Proof.Gen.KernelIdeal.Frame
import proofs.«176609_j69793218560006_2_alg».proof.Proof.Chunk
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A LATER POINT: the block ends at what it held plus the point's block sum. -/
theorem out_later (c : Dev nD) (i : grid0.Coords) (a1 : Memref sig .tc .vmem S8x512 .f32) (h1 : a1.IsWhole)
    (a2 : Memref sig .tc .vmem S8x512 .f32) (h2 : a2.IsWhole) (a3 : Memref sig .tc .vmem S8x512 .f32) (h3 : a3.IsWhole)
    (a4 : Memref sig .tc .vmem S1x1 .f32) (h4 : a4.IsWhole) (hc : ¬cond0_0 i)
    (x0 x1 x2 : Vec F S8x512 .f32) (xo : Vec F S1x1 .f32) :
    out0_B_3 c i a1 h1 a2 h2 a3 h3 a4 h4 hc x0 x1 x2 xo
      = addf (shapeCast S1x1 xo shapeCasts_S1x1_S1x1) (blockSum (k0_pay3 x0) (k0_pay4 x1) (k0_pay5 x2)) := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S8x512) hz, View.ld_unit_zero (S := S1x1) hz]
  exact stored_eq x0 x1 x2 xo

/-- The zero block the first point stores before it accumulates. -/
abbrev zeroBlock : FVec F S1x1 .f32 := broadcast S1x1 (Scalar.ofBits .f32 0x00000000#32)

/-- THE FIRST POINT: the block ends at zero plus the point's block sum. -/
theorem out_first (c : Dev nD) (i : grid0.Coords) (a1 : Memref sig .tc .vmem S8x512 .f32) (h1 : a1.IsWhole)
    (a2 : Memref sig .tc .vmem S8x512 .f32) (h2 : a2.IsWhole) (a3 : Memref sig .tc .vmem S8x512 .f32) (h3 : a3.IsWhole)
    (a4 : Memref sig .tc .vmem S1x1 .f32) (h4 : a4.IsWhole) (hc : cond0_0 i)
    (x0 x1 x2 : Vec F S8x512 .f32) :
    out0_A_3 c i a1 h1 a2 h2 a3 h3 a4 h4 hc x0 x1 x2
      = addf (shapeCast S1x1 (zeroBlock (F := F)) shapeCasts_S1x1_S1x1) (blockSum (k0_pay3 x0) (k0_pay4 x1) (k0_pay5 x2)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8x512) hz]
  exact stored_eq x0 x1 x2 (k0_pay2 (F := F))

end Cert.KernelIdeal.Body

end
-- ==== Proof.Accum.lean ====
/-
  The output block's index never moves: every grid point reads what the point before left in the block's buffer and
  adds its own block sum, and the buffer is written back to the [1, 1] result array once, after the last point. So the
  result array ends at the ordered sum  ((0 + b₀) + b₁) + … + b₆₃  of the 64 points' block sums. After the region @main
  reshapes that array to a scalar and adds it to the consistency loss computed before the region. This module states
  the running sum, shows that it is what the output buffer holds after each point (by induction on the point), reads
  the one write-back and the two host operations after the region, and so names @main's result.
-/
import proofs.«176609_j69793218560006_2_alg».proof.Proof.CaseValues
import Idealize.ShloMosaic.Lib.Pipeline.Value
import Idealize.ShloMosaic.Lib.StableHlo.Run
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What grid point `t` adds: the block sum of its three input blocks. -/
def pointSum (c : Dev nD) (t : Fin cfg0.N) : FVec F S1x1 .f32 :=
  blockSum (k0_pay3 (iblk m c 0 t)) (k0_pay4 (iblk m c 1 t)) (k0_pay5 (iblk m c 2 t))

/-- The ordered running sum after point `n`: `0 + b₀`, then `+ bₙ`. -/
def running (c : Dev nD) : (n : ℕ) → n < cfg0.N → Vec F S1x1 .f32
  | 0, h => addf (shapeCast S1x1 (zeroBlock (F := F)) shapeCasts_S1x1_S1x1) (pointSum m c ⟨0, h⟩)
  | n + 1, h => addf (shapeCast S1x1 (running c n (Nat.lt_of_succ_lt h)) shapeCasts_S1x1_S1x1) (pointSum m c ⟨n + 1, h⟩)

/-- What the output's buffer holds after point `n` is the running sum — by induction on the point. -/
theorem outsAt_eq (c : Dev nD) : ∀ (n : ℕ) (h : n < cfg0.N), outsAt0 m c n h = running m c n h
  | 0, h => (outsAt0_A m c ⟨0, h⟩ rfl).trans (out_first ..)
  | n + 1, h => by
    have hN : cfg0.N = 64 := N_0
    have hB : ¬(⟨n + 1, h⟩ : Fin cfg0.N).val % 64 = 0 := by dsimp only; omega
    rw [outsAt0_B m c ⟨n + 1, h⟩ hB, out_later]
    show addf (shapeCast S1x1 (outsAt0 m c n _) _) _ = addf (shapeCast S1x1 (running m c n _) _) _
    rw [outsAt_eq c n]
    rfl

/-- The last grid point. -/
abbrev lastPoint : Fin cfg0.N := ⟨63, by rw [show cfg0.N = 64 from N_0]; decide⟩

/-- The result array's contents after the region: the running sum after the last point (its one block IS the array). -/
abbrev total (c : Dev nD) : Buf (Elt F) ((c : Thread nD τ).loc main_v60) := running m c 63 lastPoint.isLt

/-- The output window's index map is constant: block (0, 0) at every point. -/
theorem out_index : ∀ t : Fin cfg0.N, ∀ a : Fin 2, win0_3.index t a = 0 :=
  (by decide +kernel : ∀ t : Fin grid0.N, ∀ a : Fin 2, win0_3.index t a = 0)

/-- The one write-back, at the last point, writes the total: block (0, 0) of the [1, 1] array read through zero offsets
    is the array. -/
theorem flushed_eq (c : Dev nD) (t : Fin cfg0.N) (hf : (cfg0.win 3).flush t = true) :
    (dats m 0 c).flushed 3 t = ((cfg0.win 3).blk t).view.read (Elt F) (total m c) := by
  have hN : cfg0.N = 64 := N_0
  have h3 : t.val = 63 := by have := (flush0_3 t).mp hf; have := t.isLt; omega
  obtain rfl : t = lastPoint := Fin.ext h3
  show (cfg0.win 3).cut (grid0.coords lastPoint) ((dats m 0 c).after 3 lastPoint) = _
  rw [after0_3, outsAt_eq]
  have hz' : (fun a => win0_3.index lastPoint a * main_v60.ty.shape.size a) = fun _ => 0 :=
    funext fun a => by rw [out_index lastPoint a, Nat.zero_mul]
  exact (Memref.read_access_unit_zero (Elt F) main_v60 hz' (fun a => by rw [congrFun hz' a]; simp) (total m c)).symm

/-- So the result array ends holding the total (the last point's block covers the array). -/
theorem final_o (c : Dev nD) : (dats m 0 c).arrAt 3 cfg0.N = total m c :=
  (dats m 0 c).arrAt_eq_of_cover 3 (total m c) (flushed_eq m c) fun i =>
    ⟨lastPoint, (flush0_3 lastPoint).mpr rfl, by
      show i ∈ ((View.whole main_v60).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPoint 0 * win0_3.size 0 ≤ (i 0 : Nat) ∧ (i 0 : Nat) < win0_3.index lastPoint 0 * win0_3.size 0 + win0_3.xsize (grid0.coords lastPoint) 0
                  rw [out_index lastPoint 0, show win0_3.xsize (grid0.coords lastPoint) 0 = 1 from by decide +kernel]; omega
      | ⟨1, _⟩ => show win0_3.index lastPoint 1 * win0_3.size 1 ≤ (i 1 : Nat) ∧ (i 1 : Nat) < win0_3.index lastPoint 1 * win0_3.size 1 + win0_3.xsize (grid0.coords lastPoint) 1
                  rw [out_index lastPoint 1, show win0_3.xsize (grid0.coords lastPoint) 1 = 1 from by decide +kernel]; omega⟩

/-- The two host operations after the region, read: the [1, 1] result array reshaped to a scalar and added to the
    consistency loss `%14` that @main computed before the region. -/
theorem tail_eq (c : Dev nD) :
    Pipeline.afterTail₀ cfgs (dats m) 0 (V0 m) [hostOps1] c main_v62
      = addf (V m c main_v14) (shapeCast S_ (total m c) shapeCasts_S1x1_S_) := by
  unfold Pipeline.afterTail₀
  show StableHlo.after hostOps1 _ (Proc.devRef .tc main_v62) = _
  after_results
  have e14 := Pipeline.withArrays_of_ne (cfgs 0).spec c (V0 m c) (fun w => (dats m 0 c).arrAt w (cfgs 0).N) main_v14
    (by exact (by decide : ∀ w, Pipeline.arrRef spec0 w ≠ main_v14))
  have e60 := (Pipeline.withArrays_arr spec0 launch0.win.arr_inj c (V0 m c)
    (fun w => (dats m 0 c).arrAt w (cfgs 0).N) 3).trans (final_o m c)
  rw [e14, e60]
  rfl

/-- THE RUN, READ: every weakly fair execution of @main terminates with its result at the loss plus the (reshaped)
    total, and the argument arrays unchanged. -/
theorem run : θ_run defs (onTc (τ := τ) (main (F := F))) ⟨m, fun _ => 0, ρ⟩ fun r => ∀ c : Dev nD,
      r.2.mem ((c : Thread nD τ).loc main_v62) = addf (V m c main_v14) (shapeCast S_ (total m c) shapeCasts_S1x1_S_)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v62 (Pipeline.mem_restRefs_of main_v62 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Body

end
-- ==== Proof.KernelValue.lean ====
/-
  The kernel's total, as mathematics. Window `w` of the region hands grid point `t` rows `8 t … 8 t + 7` (all 512
  columns) of its array: the squared-distance matrix `D`, and the two number masks `P`, `N`. So the point's block sum is
  the sum of the weighted hinge terms over those eight rows `i` and all `j`, `k`; the running sum after the last point
  is the sum over the 64 points; and 64 blocks of 8 rows are the 512 rows. Hence the total is
      ∑ i, ∑ j, ∑ k, max (D[i, j] - D[i, k] + margin, 0) · P[i, j] · N[i, k]
  over all 512³ triples. Sums of extended reals are re-grouped freely (a commutative monoid); nothing finite is assumed.
-/
import proofs.«176609_j69793218560006_2_alg».proof.Proof.Accum
import proofs.«176609_j69793218560006_2_alg».proof.Proof.Spec

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.Triplet

variable (m : (ℓ : Loc nD τ sig) → Buf (Elt Ideal) ℓ)

/-- The three input windows' index maps: block `(t, 0)` at point `t` — decided once over the grid. -/
theorem in_index : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- Row `r` of the block of point `t`, as a row of the array. -/
abbrev rowOf (t : Fin cfg0.N) (r : Fin 8) : Fin 512 :=
  ⟨8 * t.val + r.val, by have := t.isLt; have hN : cfg0.N = 64 := N_0; have := r.isLt; omega⟩

/-- The distance window's block at point `t` is rows `8 t …` of the distance matrix. -/
theorem iblk0_apply (c : Dev nD) (t : Fin cfg0.N) (r : Fin 8) (j : Fin 512) :
    (iblk m c 0 t : Vec Ideal S8x512 .f32) (ix2 r j) = (V m c main_v59 : S512x512.Idx → EReal) (ix2 (rowOf t r) j) := by
  have hi := (in_index t).1
  unfold iblk
  rw [View.read_apply]
  show V m c main_v59 _ = V m c main_v59 _
  congr 1
  funext a
  apply Fin.ext
  match a with
  | ⟨0, _⟩ => show win0_0.index t 0 * 8 + 1 * r.val = 8 * t.val + r.val; rw [hi.1]; omega
  | ⟨1, _⟩ => show win0_0.index t 1 * 512 + 1 * j.val = j.val; rw [hi.2]; omega

/-- The first mask window's block at point `t` is the same rows of the first number mask. -/
theorem iblk1_apply (c : Dev nD) (t : Fin cfg0.N) (r : Fin 8) (j : Fin 512) :
    (iblk m c 1 t : Vec Ideal S8x512 .f32) (ix2 r j) = (V m c main_v42 : S512x512.Idx → EReal) (ix2 (rowOf t r) j) := by
  have hi := (in_index t).2.1
  unfold iblk
  rw [View.read_apply]
  show V m c main_v42 _ = V m c main_v42 _
  congr 1
  funext a
  apply Fin.ext
  match a with
  | ⟨0, _⟩ => show win0_1.index t 0 * 8 + 1 * r.val = 8 * t.val + r.val; rw [hi.1]; omega
  | ⟨1, _⟩ => show win0_1.index t 1 * 512 + 1 * j.val = j.val; rw [hi.2]; omega

/-- The second mask window's block at point `t` is the same rows of the second number mask. -/
theorem iblk2_apply (c : Dev nD) (t : Fin cfg0.N) (r : Fin 8) (j : Fin 512) :
    (iblk m c 2 t : Vec Ideal S8x512 .f32) (ix2 r j) = (V m c main_v47 : S512x512.Idx → EReal) (ix2 (rowOf t r) j) := by
  have hi := (in_index t).2.2
  unfold iblk
  rw [View.read_apply]
  show V m c main_v47 _ = V m c main_v47 _
  congr 1
  funext a
  apply Fin.ext
  match a with
  | ⟨0, _⟩ => show win0_2.index t 0 * 8 + 1 * r.val = 8 * t.val + r.val; rw [hi.1]; omega
  | ⟨1, _⟩ => show win0_2.index t 1 * 512 + 1 * j.val = j.val; rw [hi.2]; omega

/-- A hinge term of three loaded blocks (the identity shape casts of the loads dropped). -/
theorem term_blocks (x0 x1 x2 : Vec Ideal S8x512 .f32) (r : Fin 8) (j k : Fin 512) :
    term (k0_pay3 x0) (k0_pay4 x1) (k0_pay5 x2) r j k
      = hinge (x0 (ix2 r j)) (x0 (ix2 r k)) (x1 (ix2 r j)) (x2 (ix2 r k)) := by
  unfold term hinge k0_pay3 k0_pay4 k0_pay5
  rw [shapeCast_self, shapeCast_self, shapeCast_self]

/-- The matrices the region finds, as functions on [512, 512] indices. -/
abbrev Dm (c : Dev nD) : Sq.Idx → EReal := V m c main_v59
abbrev Pm (c : Dev nD) : Sq.Idx → EReal := V m c main_v42
abbrev Nm (c : Dev nD) : Sq.Idx → EReal := V m c main_v47

/-- ONE POINT'S SUM: the weighted hinge terms of its eight rows. -/
theorem pointSum_apply (c : Dev nD) (t : Fin cfg0.N) (u v : Fin 1) :
    pointSum m c t (ix2 u v) = ∑ r : Fin 8, ∑ j : Fin 512, ∑ k : Fin 512,
      hinge (Dm m c (ix2 (rowOf t r) j)) (Dm m c (ix2 (rowOf t r) k)) (Pm m c (ix2 (rowOf t r) j)) (Nm m c (ix2 (rowOf t r) k)) := by
  unfold pointSum
  refine (blockSum_apply (k0_pay3 (iblk m c 0 t)) (k0_pay4 (iblk m c 1 t)) (k0_pay5 (iblk m c 2 t)) u v).trans ?_
  refine Finset.sum_congr rfl fun r _ => Finset.sum_congr rfl fun j _ => Finset.sum_congr rfl fun k _ => ?_
  refine (term_blocks (iblk m c 0 t) (iblk m c 1 t) (iblk m c 2 t) r j k).trans ?_
  rw [iblk0_apply m c t r j, iblk0_apply m c t r k, iblk1_apply m c t r j, iblk2_apply m c t r k]

/-- THE RUNNING SUM after point `n` is the sum of the points' sums up to `n` (the zero it starts from is the number 0). -/
theorem running_apply (c : Dev nD) (u v : Fin 1) : ∀ (n : ℕ) (h : n < cfg0.N),
    running m c n h (ix2 u v) = ∑ s : Fin (n + 1), pointSum m c ⟨s.val, Nat.lt_of_lt_of_le s.isLt (Nat.succ_le_of_lt h)⟩ (ix2 u v)
  | 0, h => by
    show (shapeCast S1x1 (zeroBlock (F := Ideal)) shapeCasts_S1x1_S1x1) (ix2 u v) + pointSum m c ⟨0, h⟩ (ix2 u v) = _
    rw [shapeCast_self]
    show Ideal.ofBits .f32 0x00000000#32 + _ = _
    rw [Ideal.ofBits_zero_f32, zero_add, Fin.sum_univ_one]
    rfl
  | n + 1, h => by
    show (shapeCast S1x1 (running m c n (Nat.lt_of_succ_lt h)) shapeCasts_S1x1_S1x1) (ix2 u v) + pointSum m c ⟨n + 1, h⟩ (ix2 u v) = _
    rw [shapeCast_self, running_apply c u v n, Fin.sum_univ_castSucc (n := n + 1)]
    rfl

/-- THE TOTAL the region leaves in the result array: the triplet hinge sum of the three matrices it was given. -/
theorem total_apply (c : Dev nD) (u v : Fin 1) :
    total m c (ix2 u v) = ∑ i : Fin 512, ∑ j : Fin 512, ∑ k : Fin 512,
      hinge (Dm m c (ix2 i j)) (Dm m c (ix2 i k)) (Pm m c (ix2 i j)) (Nm m c (ix2 i k)) := by
  show running m c 63 lastPoint.isLt (ix2 u v) = _
  rw [running_apply m c u v 63 lastPoint.isLt]
  rw [sum_rows (fun i => ∑ j : Fin 512, ∑ k : Fin 512,
      hinge (Dm m c (ix2 i j)) (Dm m c (ix2 i k)) (Pm m c (ix2 i j)) (Nm m c (ix2 i k)))]
  refine Finset.sum_congr rfl fun (s : Fin 64) _ => ?_
  exact pointSum_apply m c ⟨s.val, _⟩ u v

end Cert.KernelIdeal.Body

end
-- ==== Proof.HostPrefix.lean ====
/-
  Before the region the kernel's @main computes, with the same host operations as the reference and in the same order,
  the consistency loss (four sums of squared differences of the arguments) and the squared-distance matrix
  `D[i, j] = |y_i|² + |y_j|² - 2 <y_i, y_j>` of the rows of the fifth argument. This module identifies what the region
  finds in those two arrays with the reference's stages of the same arguments: they are the same terms, operation for
  operation.
-/
import proofs.«176609_j69793218560006_2_alg».proof.Proof.Gen.KernelIdeal.Frame
import proofs.«176609_j69793218560006_2_alg».proof.Proof.Gen.ReferenceIdeal.Read
import Idealize.ShloMosaic.Lib.StableHlo.Run
import Idealize.ShloMosaic.Lib.Tactic

set_option maxRecDepth 16384

noncomputable section

namespace Cert.KernelIdeal.Prefix

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
/-- The consistency loss the region finds in `%14` is the reference's stage of the same five arguments. -/
theorem loss_eq (c : Dev nD) :
    V m c main_v14 = Cert.ReferenceIdeal.Read.val_main_v14 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  dsimp only [V, V0]
  simp only [hostOps0, List.flatten_cons, List.flatten_nil, List.append_nil, List.cons_append, List.nil_append]
  after_results
  rfl

set_option maxHeartbeats 4000000 in
/-- The squared-distance matrix the region's first window stages is the reference's stage of the same argument. -/
theorem dist_eq (c : Dev nD) :
    V m c main_v59 = Cert.ReferenceIdeal.Read.val_main_v55 (F := Ideal) (m ((c : Thread nD τ).loc main_arg4)) := by
  dsimp only [V, V0]
  simp only [hostOps0, List.flatten_cons, List.flatten_nil, List.append_nil, List.cons_append, List.nil_append]
  after_results
  rfl

end Cert.KernelIdeal.Prefix

end
-- ==== Proof.LibScatterMap.lean ====
/-
  A `stablehlo.scatter` whose body returns the update (jax's `x.at[idx].set(v)`) is a left fold, over the update
  indices, of "write the update's element where its index lands, or drop it". Each step moves an element or leaves the
  array alone; it never computes with the values. So the scatter commutes with ANY function applied to the values:
  mapping the result is scattering the mapped updates into the mapped operand at the same indices. Nothing is assumed
  of the indices: they may repeat (the later update in row-major order wins on both sides) or fall outside the operand
  (dropped on both sides). Two consequences used by callers: a boolean mask built by scattering `true` into `false`
  and a 0/1 float mask built by scattering `1.0` into `0.0` at the same indices are one mask read through the
  bit-to-number map.
-/
import Idealize.ShloMosaic.PureOps.ShapeOps

namespace Idealize.ShloMosaic

/-- One step of a set-body scatter commutes with a map of the values. -/
theorem Host.scatter_step_map {α β : Type} {s : Shape} (g : α → β) (o : Option s.Idx) (r : s.Idx → α) (v : α) :
    (fun i' => g ((match o with
        | some i => fun i' => if i' = i then v else r i'
        | none => r) i'))
      = (match o with
        | some i => fun i' => if i' = i then g v else g (r i')
        | none => fun i' => g (r i')) := by
  cases o with
  | none => rfl
  | some i =>
    funext i'
    by_cases h : i' = i
    · simp only [h, if_true]
    · simp only [h, if_false]

/-- A set-body scatter commutes with a map of the values, for any indices. -/
theorem Host.scatter_set_map {α β : Type} {s si u : Shape} {w : Nat} (d : ScatterDims s si u) (g : α → β)
    (x : s.Idx → α) (idx : IVec si w) (upd : u.Idx → α) :
    (fun i => g (Host.scatter d (fun _ b => b) x idx upd i))
      = Host.scatter d (fun _ b => b) (fun i => g (x i)) idx (fun j => g (upd j)) := by
  unfold Host.scatter
  generalize List.finRange u.numel = l
  induction l generalizing x with
  | nil => rfl
  | cons n l ih =>
    simp only [List.foldl_cons]
    rw [ih]
    congr 1
    exact Host.scatter_step_map g (d.resultIdx? (u.rowMajor.symm n) idx) x (upd (u.rowMajor.symm n))

end Idealize.ShloMosaic
-- ==== Proof.HostMasks.lean ====
/-
  The two membership masks as the region finds them. The reference builds them as bits: `listed` (a scatter of `true`
  into `false` at the rows' neighbour lists), `diag` (row index = column index), then `P = listed and not diag` and
  `N = not listed and not diag`. The kernel builds numbers: the same scatter of 1.0 into 0.0 at the same index tensor,
  the diagonal converted exactly to 0/1, then `M · (1 - diag)` and `(1 - M) · (1 - diag)`. Each number mask is the bit
  mask read through "1 for a set bit, 0 for a clear one": for the scatter because a set-body scatter commutes with a map
  of the values (whatever the indices are: repeated, negative or out of range), for the rest by the four cases of two bits.
-/
import proofs.«176609_j69793218560006_2_alg».proof.Proof.Gen.KernelIdeal.Frame
import proofs.«176609_j69793218560006_2_alg».proof.Proof.Gen.ReferenceIdeal.Read
import proofs.«176609_j69793218560006_2_alg».proof.Proof.LibScatterMap
import proofs.«176609_j69793218560006_2_alg».proof.Proof.Masks
import Idealize.ShloMosaic.Lib.StableHlo.Run
import Idealize.ShloMosaic.Lib.Tactic
import Idealize.ShloMosaic.Lib.IdealHost

set_option maxRecDepth 16384

noncomputable section

namespace Cert.KernelIdeal.Prefix

open Cert.KernelIdeal Cert.KernelIdeal.Gen Idealize.ShloMosaic Idealize.ShloMosaic.TcCoe Idealize.SL.Sem
open Cert.Triplet

/-- The kernel's number mask of listed neighbours: 1.0 scattered into zeros at the reference's index tensor. -/
def listedNum (x5 : (⟨S512x16, .i32⟩ : BufTy).Contents (Elt Ideal)) : S512x512.Idx → EReal :=
  Host.scatter scatter_S512x512_S512x16x2_S512x16_n_01_01_2 (fun _ b => b)
    (broadcastInDim S512x512 ![] bcast_S_S512x512 (constant (F := Ideal) S_ .f32 0x00000000#32))
    (Cert.ReferenceIdeal.Read.val_main_v31 (F := Ideal) x5)
    (broadcastInDim S512x16 ![] bcast_S_S512x16 (constant (F := Ideal) S_ .f32 0x3F800000#32))

/-- It is the reference's bit mask of listed neighbours, read as numbers. -/
theorem listed_eq (x5 : (⟨S512x16, .i32⟩ : BufTy).Contents (Elt Ideal)) :
    listedNum x5 = fun y => ind (Cert.ReferenceIdeal.Read.val_main_v33 (F := Ideal) x5 y) := by
  refine Eq.trans ?_ (Host.scatter_set_map Cert.ReferenceIdeal.scatter_S512x512_S512x16x2_S512x16_n_01_01_2 ind
    (Cert.ReferenceIdeal.Read.val_main_v15 (F := Ideal)) (Cert.ReferenceIdeal.Read.val_main_v31 (F := Ideal) x5)
    (Cert.ReferenceIdeal.Read.val_main_v32 (F := Ideal))).symm
  unfold listedNum
  have hz : (fun i => ind (Cert.ReferenceIdeal.Read.val_main_v15 (F := Ideal) i))
      = broadcastInDim S512x512 ![] bcast_S_S512x512 (constant (F := Ideal) S_ .f32 0x00000000#32) := by
    funext i
    show ind 0#1 = Ideal.ofBits .f32 0x00000000#32
    rw [ind_clear, Ideal.ofBits_zero_f32]
  have ho : (fun j => ind (Cert.ReferenceIdeal.Read.val_main_v32 (F := Ideal) j))
      = broadcastInDim S512x16 ![] bcast_S_S512x16 (constant (F := Ideal) S_ .f32 0x3F800000#32) := by
    funext j
    show ind 1#1 = Ideal.ofBits .f32 0x3F800000#32
    rw [ind_set, Ideal.ofBits_one_f32]
  rw [hz, ho]
  rfl

variable (m : (ℓ : Loc nD τ sig) → Buf (Elt Ideal) ℓ)

/-- The splat of 1.0 over a [512, 512] array. -/
abbrev onesNum : S512x512.Idx → EReal := broadcastInDim S512x512 ![] bcast_S_S512x512 (constant (F := Ideal) S_ .f32 0x3F800000#32)

/-- The diagonal as numbers: the exact conversion of the reference's diagonal bits. -/
abbrev diagNum : S512x512.Idx → EReal := uitofp (F := Ideal) .f32 (Cert.ReferenceIdeal.Read.val_main_v38 (F := Ideal))

set_option maxHeartbeats 4000000 in
/-- The first mask the region finds, as a term: listed · (1 − diag). -/
theorem pos_term (c : Dev nD) :
    (V m c main_v42 : S512x512.Idx → EReal)
      = (mulf (listedNum (m ((c : Thread nD τ).loc main_arg5)) : FVec Ideal S512x512 .f32) (subf onesNum diagNum) : FVec Ideal S512x512 .f32) := by
  dsimp only [V, V0]
  simp only [hostOps0, List.flatten_cons, List.flatten_nil, List.append_nil, List.cons_append, List.nil_append]
  after_results
  rfl

set_option maxHeartbeats 4000000 in
/-- The second mask the region finds, as a term: (1 − listed) · (1 − diag). -/
theorem neg_term (c : Dev nD) :
    (V m c main_v47 : S512x512.Idx → EReal)
      = (mulf (subf (onesNum : FVec Ideal S512x512 .f32) (listedNum (m ((c : Thread nD τ).loc main_arg5)))) (subf onesNum diagNum) : FVec Ideal S512x512 .f32) := by
  dsimp only [V, V0]
  simp only [hostOps0, List.flatten_cons, List.flatten_nil, List.append_nil, List.cons_append, List.nil_append]
  after_results
  rfl

/-- THE FIRST MASK is the reference's bit mask `P = listed and not diag`, read as numbers. -/
theorem pos_eq (c : Dev nD) (y : S512x512.Idx) :
    V m c main_v42 y = ind (Cert.ReferenceIdeal.Read.val_main_v40 (F := Ideal) (m ((c : Thread nD τ).loc main_arg5)) y) := by
  rw [pos_term, listed_eq]
  show ind (Cert.ReferenceIdeal.Read.val_main_v33 (F := Ideal) (m ((c : Thread nD τ).loc main_arg5)) y)
      * (Ideal.ofBits .f32 0x3F800000#32 - FloatOps.uitofp (F := Ideal) .f32 (Cert.ReferenceIdeal.Read.val_main_v38 (F := Ideal) y))
    = ind (IntOp.andi (Cert.ReferenceIdeal.Read.val_main_v33 (F := Ideal) (m ((c : Thread nD τ).loc main_arg5)) y)
        (~~~(Cert.ReferenceIdeal.Read.val_main_v38 (F := Ideal) y)))
  rw [Ideal.ofBits_one_f32, uitofp_bit, ind_and_not]

/-- THE SECOND MASK is the reference's bit mask `N = not listed and not diag`, read as numbers. -/
theorem neg_eq (c : Dev nD) (y : S512x512.Idx) :
    V m c main_v47 y = ind (Cert.ReferenceIdeal.Read.val_main_v43 (F := Ideal) (m ((c : Thread nD τ).loc main_arg5)) y) := by
  rw [neg_term, listed_eq]
  show (Ideal.ofBits .f32 0x3F800000#32
        - ind (Cert.ReferenceIdeal.Read.val_main_v33 (F := Ideal) (m ((c : Thread nD τ).loc main_arg5)) y))
      * (Ideal.ofBits .f32 0x3F800000#32 - FloatOps.uitofp (F := Ideal) .f32 (Cert.ReferenceIdeal.Read.val_main_v38 (F := Ideal) y))
    = ind (IntOp.andi (~~~(Cert.ReferenceIdeal.Read.val_main_v33 (F := Ideal) (m ((c : Thread nD τ).loc main_arg5)) y))
        (~~~(Cert.ReferenceIdeal.Read.val_main_v38 (F := Ideal) y)))
  rw [Ideal.ofBits_one_f32, uitofp_bit, ind_not_and_not]

end Cert.KernelIdeal.Prefix

end
-- ==== Proof.Bridge.lean ====
/-
  The kernel's result as a number, in the reference's terms. @main's result is the consistency loss plus the region's
  total; the total is the triplet hinge sum of the three matrices the region was given; the loss and the distance matrix
  are the reference's stages of the same arguments and the two number masks are the reference's bit masks read as
  numbers. So the kernel's result is the reference's loss stage plus the triplet hinge sum of the reference's distance
  matrix and bit masks — the same expression the reference's own result is shown to equal.
-/
import proofs.«176609_j69793218560006_2_alg».proof.Proof.KernelValue
import proofs.«176609_j69793218560006_2_alg».proof.Proof.HostPrefix
import proofs.«176609_j69793218560006_2_alg».proof.Proof.HostMasks

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.Triplet

variable (m : (ℓ : Loc nD τ sig) → Buf (Elt Ideal) ℓ)

/-- THE KERNEL'S RESULT: the reference's loss stage plus the triplet hinge sum of the reference's distance matrix and
    bit masks, all of the kernel's own argument arrays. -/
theorem result_value (c : Dev nD) (i : S_.Idx) :
    (addf (V m c main_v14 : FVec Ideal S_ .f32) (shapeCast S_ (total m c) shapeCasts_S1x1_S_) : FVec Ideal S_ .f32) i
      = Cert.ReferenceIdeal.Read.val_main_v14 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) i
        + tripletSum (Cert.ReferenceIdeal.Read.val_main_v55 (F := Ideal) (m ((c : Thread nD τ).loc main_arg4)))
            (Cert.ReferenceIdeal.Read.val_main_v40 (F := Ideal) (m ((c : Thread nD τ).loc main_arg5)))
            (Cert.ReferenceIdeal.Read.val_main_v43 (F := Ideal) (m ((c : Thread nD τ).loc main_arg5))) := by
  rw [addf_apply, Prefix.loss_eq m c]
  congr 1
  rw [shapeCast_apply (total m c) shapeCasts_S1x1_S_ i (ix2 (0 : Fin 1) (0 : Fin 1)) (by
    have h : (S_.rowMajor i).val < 1 := (S_.rowMajor i).isLt
    show (S1x1.rowMajor (ix2 (0 : Fin 1) (0 : Fin 1))).val = (S_.rowMajor i).val
    rw [Shape.rowMajor_val_two]
    show 0 * 1 + 0 = (S_.rowMajor i).val
    omega)]
  rw [total_apply m c 0 0]
  unfold tripletSum
  refine Finset.sum_congr rfl fun a _ => Finset.sum_congr rfl fun b _ => Finset.sum_congr rfl fun k _ => ?_
  show hinge (V m c main_v59 (ix2 a b)) (V m c main_v59 (ix2 a k)) (V m c main_v42 (ix2 a b)) (V m c main_v47 (ix2 a k)) = _
  rw [Prefix.pos_eq m c, Prefix.neg_eq m c, Prefix.dist_eq m c]

end Cert.KernelIdeal.Body

end
-- ==== Proof.RefValue.lean ====
/-
  The reference's result, as mathematics. The reference adds two numbers: the consistency loss (left as the stage that
  computes it) and the triplet term, which it forms by materialising, for every triple (i, j, k) of 512³, the value
      where (P[i, j] and N[i, k])  then  max (D[i, j] - D[i, k] + margin, 0)  else  0
  and summing all of them from 0. Here that total is identified with the triplet hinge sum of the specification:
  the sum over the rank-3 index set is the triple sum over its coordinates; the two broadcasts of `D` (along the last
  and along the middle axis) read `D[i, j]` and `D[i, k]` at the triple (i, j, k), and likewise the two masks; and a
  selection on the conjunction of two bits is the product with the two numbers the bits stand for.
-/
import proofs.«176609_j69793218560006_2_alg».proof.Proof.Gen.ReferenceIdeal.Read
import proofs.«176609_j69793218560006_2_alg».proof.Proof.Spec

noncomputable section

namespace Cert.ReferenceIdeal.RefValue

open Cert.ReferenceIdeal Cert.ReferenceIdeal.Gen Idealize.ShloMosaic Idealize.ShloMosaic.ValueIdx Cert.Triplet

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable (x4 : (⟨S512x128, .f32⟩ : BufTy).Contents (Elt Ideal)) (x5 : (⟨S512x16, .i32⟩ : BufTy).Contents (Elt Ideal))

/-- At the triple (i, j, k) the broadcast of the distance matrix along the last axis reads `D[i, j]`. -/
theorem v58_at (i j k : Fin 512) :
    Read.val_main_v58 (F := Ideal) x4 (ix3 i j k) = Read.val_main_v55 (F := Ideal) x4 (ix2 i j) := by
  rw [Read.val_main_v58_apply, Read.val_main_v56_apply]
  congr 1
  funext a
  match a with
  | ⟨0, _⟩ => rfl
  | ⟨1, _⟩ => rfl

/-- At the triple (i, j, k) the broadcast of the distance matrix along the middle axis reads `D[i, k]`. -/
theorem v59_at (i j k : Fin 512) :
    Read.val_main_v59 (F := Ideal) x4 (ix3 i j k) = Read.val_main_v55 (F := Ideal) x4 (ix2 i k) := by
  rw [Read.val_main_v59_apply, Read.val_main_v57_apply]
  congr 1
  funext a
  match a with
  | ⟨0, _⟩ => rfl
  | ⟨1, _⟩ => rfl

/-- At the triple (i, j, k) the broadcast of the first mask along the last axis reads `P[i, j]`. -/
theorem v65_at (i j k : Fin 512) :
    Read.val_main_v65 (F := Ideal) x5 (ix3 i j k) = Read.val_main_v40 (F := Ideal) x5 (ix2 i j) := by
  rw [Read.val_main_v65_apply, Read.val_main_v63_apply]
  congr 1
  funext a
  match a with
  | ⟨0, _⟩ => rfl
  | ⟨1, _⟩ => rfl

/-- At the triple (i, j, k) the broadcast of the second mask along the middle axis reads `N[i, k]`. -/
theorem v66_at (i j k : Fin 512) :
    Read.val_main_v66 (F := Ideal) x5 (ix3 i j k) = Read.val_main_v43 (F := Ideal) x5 (ix2 i k) := by
  rw [Read.val_main_v66_apply, Read.val_main_v64_apply]
  congr 1
  funext a
  match a with
  | ⟨0, _⟩ => rfl
  | ⟨1, _⟩ => rfl

/-- The value the reference materialises at the triple (i, j, k) is the weighted hinge term of the specification:
    the selection on `P[i, j] and N[i, k]` between `max (D[i, j] - D[i, k] + margin, 0)` and 0 is that maximum times
    the two numbers the bits stand for. -/
theorem term_eq (i j k : Fin 512) :
    Read.val_main_v69 (F := Ideal) x4 x5 (ix3 i j k)
      = hinge (Read.val_main_v55 (F := Ideal) x4 (ix2 i j)) (Read.val_main_v55 (F := Ideal) x4 (ix2 i k))
          (ind (Read.val_main_v40 (F := Ideal) x5 (ix2 i j))) (ind (Read.val_main_v43 (F := Ideal) x5 (ix2 i k))) := by
  unfold hinge
  rw [mul_ind_ind, Read.val_main_v69_apply, Read.val_main_v67_apply, Read.val_main_v68_apply, Read.val_main_v62_apply,
    Read.val_main_v60_apply, v58_at, v59_at, v65_at, v66_at, Read.val_main_v61_apply, Read.val_main_cst_11_apply,
    Read.val_main_call0_v0_apply, Read.val_main_call0_cst_apply, Read.val_main_call1_v1_apply,
    Read.val_main_call1_v0_apply, Read.val_main_cst_12_apply, Ideal.maximumf_def, Ideal.addf_def, Ideal.subf_def,
    Ideal.ofBits_def, Ideal.ofBits_def, Ideal.ofBits_zero_f32]

/-- THE REFERENCE'S RESULT: the consistency loss plus the triplet hinge sum of the squared-distance matrix and the two
    membership masks the reference builds. -/
theorem result_eq (x0 x1 x2 x3 x4 : (⟨S512x128, .f32⟩ : BufTy).Contents (Elt Ideal))
    (x5 : (⟨S512x16, .i32⟩ : BufTy).Contents (Elt Ideal)) (i : S_.Idx) :
    Read.val_main_v71 (F := Ideal) x0 x1 x2 x3 x4 x5 i
      = Read.val_main_v14 (F := Ideal) x0 x1 x2 x3 x4 i
        + Cert.Triplet.tripletSum (Read.val_main_v55 (F := Ideal) x4) (Read.val_main_v40 (F := Ideal) x5)
            (Read.val_main_v43 (F := Ideal) x5) := by
  rw [Read.val_main_v71_apply, Ideal.addf_def, Read.val_main_v70_apply, Read.val_main_cst_13_apply,
    Ideal.ofBits_def, Ideal.ofBits_zero_f32, zero_add, sum_idx3]
  unfold tripletSum
  congr 1
  refine Finset.sum_congr rfl fun a _ => Finset.sum_congr rfl fun b _ => Finset.sum_congr rfl fun c _ => ?_
  exact term_eq x4 x5 a b c

end Cert.ReferenceIdeal.RefValue

end
-- ==== Proof.lean ====
/-
  The kernel computes a consistency loss (four sums of squared differences) plus a triplet hinge sum
      ∑ i, ∑ j, ∑ k, max (D[i, j] - D[i, k] + margin, 0) · P[i, j] · N[i, k]
  over all 512³ triples, where D is the matrix of squared distances of the rows of one argument and P, N are two
  membership masks scattered from an integer argument. The reference computes the same loss and materialises the same
  sum over a [512, 512, 512] tensor with boolean masks and a selection. The kernel tiles the sum: 64 grid points of 8
  rows `i`, inside a point four chunks of 128 columns `k`, accumulated into one output block across the grid.
  Over the extended reals both results are the loss plus that triple sum: sums re-group freely, a product with a 0/1
  mask is the selection for every extended real, and the two masks correspond because a set-body scatter commutes with
  reading a bit as a number. No finiteness of the inputs is used.
  The three frames are the generated ones; the ideal pass rewrote nothing.
-/
import proofs.«176609_j69793218560006_2_alg».proof.Defs
import proofs.«176609_j69793218560006_2_alg».proof.Proof.Gen.Kernel
import proofs.«176609_j69793218560006_2_alg».proof.Proof.Gen.Kernel.Skeleton
import proofs.«176609_j69793218560006_2_alg».proof.Proof.Gen.Kernel.Launch
import proofs.«176609_j69793218560006_2_alg».proof.Proof.Gen.Kernel.Points
import proofs.«176609_j69793218560006_2_alg».proof.Proof.Gen.Kernel.Frame
import proofs.«176609_j69793218560006_2_alg».proof.Proof.Gen.KernelIdeal
import proofs.«176609_j69793218560006_2_alg».proof.Proof.Gen.KernelIdeal.Skeleton
import proofs.«176609_j69793218560006_2_alg».proof.Proof.Gen.KernelIdeal.Launch
import proofs.«176609_j69793218560006_2_alg».proof.Proof.Gen.KernelIdeal.Points
import proofs.«176609_j69793218560006_2_alg».proof.Proof.Gen.KernelIdeal.Frame
import proofs.«176609_j69793218560006_2_alg».proof.Proof.Gen.ReferenceIdeal
import proofs.«176609_j69793218560006_2_alg».proof.Proof.Gen.ReferenceIdeal.Run
import proofs.«176609_j69793218560006_2_alg».proof.Proof.Gen.ReferenceIdeal.Read
import proofs.«176609_j69793218560006_2_alg».proof.Proof.Gen.Pre_finite_inputs
import proofs.«176609_j69793218560006_2_alg».proof.Proof.Bridge
import proofs.«176609_j69793218560006_2_alg».proof.Proof.RefValue
import Idealize.ShloMosaic.Adequacy
import Idealize.ShloMosaic.Init

noncomputable section

namespace Cert.Proof

open Idealize.ShloMosaic Idealize.SL.Sem Cert.Kernel

/-- The printed kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals the kernel's result is the loss plus the triplet hinge sum (the accumulation over the grid,
    read), and so is the reference's (its [512, 512, 512] reduction, read), of arguments that agree. -/
theorem algebraic : Cert.algebraic_KernelIdeal_ReferenceIdeal := by
  intro m ρ m' ρ' _ hagree
  refine ⟨_, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  funext i
  rw [Cert.ReferenceIdeal.RefValue.result_eq]
  refine Eq.trans ?_ (Cert.KernelIdeal.Body.result_value m c i).symm
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
